-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1000000 32) (main_arg2 : IVec S1000000 32) (main_arg3 : FVec F S64x128 .f32) (main_arg4 : FVec F S64x128 .f32) (main_arg5 : FVec F S128 .f32) (main_arg6 : FVec F S128x64 .f32) (main_arg7 : FVec F S128x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1000000x128 : Shape := ⟨2, ![1000000, 128]⟩
abbrev S1x64 : Shape := ⟨2, ![1, 64]⟩

abbrev nBuf : Space → Nat
  | .hbm => 56
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1000000, .f32⟩
  | .hbm, ⟨11, _⟩ => ⟨S_, .f32⟩
  | .hbm, ⟨12, _⟩ => ⟨S100000, .f32⟩
  | .hbm, ⟨13, _⟩ => ⟨S1000000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x128, .f32⟩
  | .hbm, ⟨48, _⟩ => ⟨S_, .f32⟩
  | .hbm, ⟨49, _⟩ => ⟨S100000x128, .f32⟩
  | .hbm, ⟨50, _⟩ => ⟨S1000000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x64, .f32⟩
  | .hbm, ⟨55, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1000000x128 : Shape := ⟨2, ![1000000, 128]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S_, .f32⟩
  | .hbm, ⟨19, _⟩ => ⟨S100000x64, .f32⟩
  | .hbm, ⟨20, _⟩ => ⟨S1000000x1, .i32⟩
  | .hbm, ⟨21, _⟩ => ⟨S100000x64, .f32⟩
  | .hbm, ⟨22, _⟩ => ⟨S_, .f32⟩
  | .hbm, ⟨23, _⟩ => ⟨S1000000, .f32⟩
  | .hbm, ⟨24, _⟩ => ⟨S_, .f32⟩
  | .hbm, ⟨25, _⟩ => ⟨S100000, .f32⟩
  | .hbm, ⟨26, _⟩ => ⟨S1000000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x128, .f32⟩
  | .hbm, ⟨52, _⟩ => ⟨S_, .f32⟩
  | .hbm, ⟨53, _⟩ => ⟨S100000x128, .f32⟩
  | .hbm, ⟨54, _⟩ => ⟨S1000000x1, .i32⟩
  | .hbm, ⟨55, _⟩ => ⟨S100000x128, .f32⟩
  | .hbm, ⟨56, _⟩ => ⟨S_, .f32⟩
  | .hbm, ⟨57, _⟩ => ⟨S1000000, .f32⟩
  | .hbm, ⟨58, _⟩ => ⟨S_, .f32⟩
  | .hbm, ⟨59, _⟩ => ⟨S100000, .f32⟩
  | .hbm, ⟨60, _⟩ => ⟨S1000000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The kernel program's run with its result array named.

  The program is four segments in a row: host operations, the first pallas_call, host operations, the second
  pallas_call. The buffer contents at the segment boundaries form a chain `W0 … W4` (the generated frame module builds
  it): `W1` is `W0` after the first stretch of host operations, `W2` is `W1` with the first call's arrays replaced by what
  its write-backs leave, and so on. Every weakly fair execution ends with EVERY unscoped buffer at `W4`; the frame claim
  reads that fact at the nine arguments, and here it is read at the result buffer as well.
-/
import proofs.«153038_j40776419508824_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer ending at the last
    boundary's contents `W4` and the nine arguments as launched. -/
theorem run_out : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KRun

end
-- ==== Proof.RefAgg.lean ====
/-
  Mean aggregation over incoming edges, as the reference computes it on the extended reals.

  An edge `e` carries the features of node `src e` to node `dst e`. A negative source index is first shifted up by the
  number of nodes (`wrap`). `sum1` / `sum2` add, at every node, the feature rows of the sources of its incoming edges
  (a gather of rows followed by a scatter-add into a zero array); `deg` counts the incoming edges of every node the same
  way (a scatter-add of ones) and clamps the count below at one; `agg1` / `agg2` divide each summed row by that count.
  Gather and scatter-add are kept as the host's own operations: nothing below opens them.
-/
import proofs.«153038_j40776419508824_1_alg».proof.ReferenceIdeal
import proofs.«153038_j40776419508824_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe

/-- One 32-bit integer per edge. -/
abbrev Edges := IVec S1000000 32

/-- The edge sources as a column of row indices, a negative index shifted up by the number of nodes. -/
def wrap (src : Edges) : IVec S1000000x1 32 :=
  broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)

/-- The number of incoming edges of every node, clamped below at one. -/
def deg (dst : Edges) : FVec Ideal S100000 .f32 :=
  maximumf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S100000 ![] bcast_S_S100000 (constant (F := Ideal) S_ .f32 0x3F800000#32))

/-- At every node, the sum of the 64-feature rows of the sources of its incoming edges. -/
def sum1 (src dst : Edges) (x : FVec Ideal S100000x64 .f32) : FVec Ideal S100000x64 .f32 :=
  Host.scatterAdd scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 dst) (Host.gather gather_S100000x64_S1000000x1_S1000000x64_1_0_n_n_0_1_164 x (wrap src))

/-- At every node, the sum of the 128-feature rows of the sources of its incoming edges. -/
def sum2 (src dst : Edges) (x : FVec Ideal S100000x128 .f32) : FVec Ideal S100000x128 .f32 :=
  Host.scatterAdd scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 dst) (Host.gather gather_S100000x128_S1000000x1_S1000000x128_1_0_n_n_0_1_1128 x (wrap src))

/-- The mean of the incoming 64-feature rows: the sum divided by the clamped count. -/
def agg1 (src dst : Edges) (x : FVec Ideal S100000x64 .f32) : FVec Ideal S100000x64 .f32 :=
  Host.divf (sum1 src dst x) (broadcastInDim S100000x64 ![0, 1] bcast_S100000x1_S100000x64_0_1 (broadcastInDim S100000x1 ![0] bcast_S100000_S100000x1_0 (deg dst)))

/-- The mean of the incoming 128-feature rows: the sum divided by the clamped count. -/
def agg2 (src dst : Edges) (x : FVec Ideal S100000x128 .f32) : FVec Ideal S100000x128 .f32 :=
  Host.divf (sum2 src dst x) (broadcastInDim S100000x128 ![0, 1] bcast_S100000x1_S100000x128_0_1 (broadcastInDim S100000x1 ![0] bcast_S100000_S100000x1_0 (deg dst)))

end Cert.ReferenceIdeal.RefValue

end
-- ==== Proof.Spec.lean ====
/-
  Two-layer mean-aggregation graph convolution on the extended reals, index by index.

  A layer maps node features `x` (one row per node) and aggregated neighbour features `hn` (same shape) to
  `x · Wself + hn · Wneigh + b`, the products being plain sums over the shared axis; the first layer clamps the
  result below at zero. The bias is carried as a one-row matrix. The network composes two layers, the second
  fed with the first's output and that output's own neighbour aggregate; the aggregation itself is a parameter
  (`agg1`, `agg2`): nothing here depends on how neighbours are gathered and averaged.
-/
import Idealize.ShloMosaic.PureOps.Ideal
import Idealize.ShloMosaic.Lib.ValueIdx

noncomputable section

namespace Cert.Sage

open Idealize.ShloMosaic Idealize.ShloMosaic.ValueIdx
open scoped BigOperators

/-- An `a × b` matrix of extended reals. -/
abbrev Mat (a b : Nat) := (⟨2, ![a, b]⟩ : Shape).Idx → EReal
/-- A vector of `a` extended reals. -/
abbrev Vec1 (a : Nat) := (⟨1, ![a]⟩ : Shape).Idx → EReal

/-- A vector as a one-row matrix. -/
def row {a : Nat} (b : Vec1 a) : Mat 1 a := fun j => b (ix1 (j 1))

/-- First layer, 64 → 128 features over 100000 nodes, clamped below at zero:
    entry `(r, q)` is `max (∑ₖ x r k · ws k q + ∑ₖ hn r k · wn k q + b 0 q) 0`. -/
def layer1 (x hn : Mat 100000 64) (ws wn : Mat 64 128) (b : Mat 1 128) : Mat 100000 128 :=
  fun i => max (((∑ k : Fin 64, x (ix2 (i 0 : Fin 100000) k) * ws (ix2 k (i 1 : Fin 128)))
      + (∑ k : Fin 64, hn (ix2 (i 0 : Fin 100000) k) * wn (ix2 k (i 1 : Fin 128)))) + b (ix2 (0 : Fin 1) (i 1 : Fin 128))) 0

/-- Second layer, 128 → 64 features over 100000 nodes, not clamped:
    entry `(r, q)` is `∑ₖ x r k · ws k q + ∑ₖ hn r k · wn k q + b 0 q`. -/
def layer2 (x hn : Mat 100000 128) (ws wn : Mat 128 64) (b : Mat 1 64) : Mat 100000 64 :=
  fun i => ((∑ k : Fin 128, x (ix2 (i 0 : Fin 100000) k) * ws (ix2 k (i 1 : Fin 64)))
      + (∑ k : Fin 128, hn (ix2 (i 0 : Fin 100000) k) * wn (ix2 k (i 1 : Fin 64)))) + b (ix2 (0 : Fin 1) (i 1 : Fin 64))

/-- The two layers composed, each fed with its input's neighbour aggregate. -/
def net (agg1 : Mat 100000 64 → Mat 100000 64) (agg2 : Mat 100000 128 → Mat 100000 128)
    (x : Mat 100000 64) (ws1 wn1 : Mat 64 128) (b1 : Vec1 128) (ws2 wn2 : Mat 128 64) (b2 : Vec1 64) : Mat 100000 64 :=
  layer2 (layer1 x (agg1 x) ws1 wn1 (row b1)) (agg2 (layer1 x (agg1 x) ws1 wn1 (row b1))) ws2 wn2 (row b2)

/-- Dividing by a value that is at least one is multiplying by its reciprocal: on the extended reals
    `a · (1 / max g 1) = a / max g 1` for every `a` and `g`, the infinities included (the divisor is never zero, so both
    quotients are products with its inverse). -/
theorem mul_one_div_max (a g : EReal) : a * Ideal.div 1 (max g 1) = Ideal.div a (max g 1) := by
  have h : max g 1 ≠ 0 := fun e => by
    have : (1 : EReal) ≤ 0 := e ▸ le_max_right g 1
    exact absurd this (by norm_num)
  rw [Ideal.div, if_neg h, Ideal.div, if_neg h, one_mul]

end Cert.Sage

end
-- ==== Proof.KAgg.lean ====
/-
  Mean aggregation as the kernel program computes it, and its agreement with the reference's.

  The kernel program forms, once, the RECIPROCAL of every node's clamped incoming-edge count (`invdeg`: one over the
  maximum of the count and one, as a column) and multiplies each node's summed feature row by it (`mean1`, `mean2`); the
  reference divides the summed row by the clamped count. On the extended reals the two are equal entry by entry:
  the clamped count is at least one, hence never zero, so the quotient by it is the product with its inverse and
  `a · (1 / d) = a / d` holds for every `a`, the infinities included (`Cert.Sage.mul_one_div_max`). The sums themselves
  — a gather of rows and a scatter-add — are the same host operations on both sides and are never opened.
-/
import proofs.«153038_j40776419508824_1_alg».proof.KernelIdeal
import proofs.«153038_j40776419508824_1_alg».proof.Proof.Gen.KernelIdeal
import proofs.«153038_j40776419508824_1_alg».proof.Proof.RefAgg
import proofs.«153038_j40776419508824_1_alg».proof.Proof.Spec
import Idealize.ShloMosaic.Lib.Pipeline.Value
import Idealize.ShloMosaic.Lib.IdealHost

noncomputable section

namespace Cert.KernelIdeal.KAgg

open Cert.KernelIdeal Cert.KernelIdeal.Gen Idealize.ShloMosaic Idealize.ShloMosaic.TcCoe Idealize.ShloMosaic.ValueIdx

/-- One 32-bit integer per edge. -/
abbrev Edges := IVec S1000000 32

/-- The edge sources as a column of row indices, a negative index shifted up by the number of nodes. -/
def wrap (src : Edges) : IVec S1000000x1 32 :=
  broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)

/-- One over every node's incoming-edge count clamped below at one, as a column. -/
def invdeg (dst : Edges) : FVec Ideal S100000x1 .f32 :=
  broadcastInDim S100000x1 ![0] bcast_S100000_S100000x1_0 (Host.divf (broadcastInDim S100000 ![] bcast_S_S100000 (constant (F := Ideal) S_ .f32 0x3F800000#32)) (maximumf (Host.scatterAdd scatter_S100000_S1000000x1_S1000000_n_0_0_1 (broadcastInDim S100000 ![] bcast_S_S100000 (constant (F := Ideal) S_ .f32 0x00000000#32)) (broadcastInDim S1000000x1 ![0] bcast_S1000000_S1000000x1_0 dst) (broadcastInDim S1000000 ![] bcast_S_S1000000 (constant (F := Ideal) S_ .f32 0x3F800000#32))) (broadcastInDim S100000 ![] bcast_S_S100000 (constant (F := Ideal) S_ .f32 0x3F800000#32))))

/-- The summed incoming 64-feature rows times a column `r` of per-node factors. -/
def scaled1 (src dst : Edges) (r : FVec Ideal S100000x1 .f32) (x : FVec Ideal S100000x64 .f32) : FVec Ideal S100000x64 .f32 :=
  mulf (Host.scatterAdd scatter_S100000x64_S1000000x1_S1000000x64_1_0_0_1 (broadcastInDim S100000x64 ![] bcast_S_S100000x64 (constant (F := Ideal) S_ .f32 0x00000000#32)) (broadcastInDim S1000000x1 ![0] bcast_S1000000_S1000000x1_0 dst) (Host.gather gather_S100000x64_S1000000x1_S1000000x64_1_0_n_n_0_1_164 x (wrap src))) (broadcastInDim S100000x64 ![0, 1] bcast_S100000x1_S100000x64_0_1 r)

/-- The summed incoming 128-feature rows times a column `r` of per-node factors. -/
def scaled2 (src dst : Edges) (r : FVec Ideal S100000x1 .f32) (x : FVec Ideal S100000x128 .f32) : FVec Ideal S100000x128 .f32 :=
  mulf (Host.scatterAdd scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 dst) (Host.gather gather_S100000x128_S1000000x1_S1000000x128_1_0_n_n_0_1_1128 x (wrap src))) (broadcastInDim S100000x128 ![0, 1] bcast_S100000x1_S100000x128_0_1 r)

/-- A vector made a column and the column spread over `n` columns reads, at `(p, q)`, the vector at `p`. -/
theorem col_apply {α : Type} {n : Nat} (h1 : (⟨1, ![100000]⟩ : Shape).BroadcastsInDim ⟨2, ![100000, 1]⟩ ![0])
    (h2 : (⟨2, ![100000, 1]⟩ : Shape).BroadcastsInDim ⟨2, ![100000, n]⟩ ![0, 1]) (y : (⟨1, ![100000]⟩ : Shape).Idx → α)
    (p : Fin 100000) (q : Fin n) :
    broadcastInDim ⟨2, ![100000, n]⟩ ![0, 1] h2 (broadcastInDim ⟨2, ![100000, 1]⟩ ![0] h1 y) (ix2 p q) = y (ix1 p) := by
  rw [broadcastInDim_apply ![0, 1] h2 _ (ix2 p q) (ix2 p (0 : Fin 1)) (fun a => by
      match a with
      | ⟨0, _⟩ => rfl
      | ⟨1, _⟩ => rfl),
    broadcastInDim_apply ![0] h1 y (ix2 p (0 : Fin 1)) (ix1 p) (fun a => by
      match a with
      | ⟨0, _⟩ => rfl)]

/-- The constant one spread over the nodes reads one everywhere. -/
theorem ones_apply (h0 : (⟨0, ![]⟩ : Shape).BroadcastsInDim ⟨1, ![100000]⟩ ![]) (j : (⟨1, ![100000]⟩ : Shape).Idx) :
    broadcastInDim ⟨1, ![100000]⟩ ![] h0 (constant (F := Ideal) ⟨0, ![]⟩ .f32 0x3F800000#32) j = (1 : EReal) := by
  show Ideal.ofBits .f32 0x3F800000#32 = 1
  exact Ideal.ofBits_one_f32

/-- For any matrix `s` and any per-node value `g`: `s` times the spread column of `1 / max g 1` is `s` divided by the
    spread column of `max g 1`, entry by entry. -/
theorem scale_eq_div {n : Nat} (h0 : (⟨0, ![]⟩ : Shape).BroadcastsInDim ⟨1, ![100000]⟩ ![])
    (h1 : (⟨1, ![100000]⟩ : Shape).BroadcastsInDim ⟨2, ![100000, 1]⟩ ![0])
    (h2 : (⟨2, ![100000, 1]⟩ : Shape).BroadcastsInDim ⟨2, ![100000, n]⟩ ![0, 1])
    (s : FVec Ideal ⟨2, ![100000, n]⟩ .f32) (g : FVec Ideal ⟨1, ![100000]⟩ .f32) :
    mulf s (broadcastInDim ⟨2, ![100000, n]⟩ ![0, 1] h2 (broadcastInDim ⟨2, ![100000, 1]⟩ ![0] h1
        (Host.divf (broadcastInDim ⟨1, ![100000]⟩ ![] h0 (constant (F := Ideal) ⟨0, ![]⟩ .f32 0x3F800000#32))
          (maximumf g (broadcastInDim ⟨1, ![100000]⟩ ![] h0 (constant (F := Ideal) ⟨0, ![]⟩ .f32 0x3F800000#32))))))
      = Host.divf s (broadcastInDim ⟨2, ![100000, n]⟩ ![0, 1] h2 (broadcastInDim ⟨2, ![100000, 1]⟩ ![0] h1
          (maximumf g (broadcastInDim ⟨1, ![100000]⟩ ![] h0 (constant (F := Ideal) ⟨0, ![]⟩ .f32 0x3F800000#32))))) := by
  funext i
  obtain ⟨p, q, rfl⟩ : ∃ (p : Fin 100000) (q : Fin n), i = ix2 p q := ⟨i 0, i 1, eq_ix2 i⟩
  simp only [mulf, Host.divf]
  rw [col_apply, col_apply]
  simp only [Host.divf, maximumf, Ideal.mulf_def, Ideal.hostDivf_def, Ideal.maximumf_def]
  rw [ones_apply]
  exact Cert.Sage.mul_one_div_max _ _

/-- Multiplying the summed 64-feature rows by the reciprocal column is dividing them by the clamped count. -/
theorem mean1_eq (src dst : Edges) (x : FVec Ideal S100000x64 .f32) :
    scaled1 src dst (invdeg dst) x = Cert.ReferenceIdeal.RefValue.agg1 src dst x :=
  scale_eq_div _ _ _ _ _

/-- The same for the 128-feature rows. -/
theorem mean2_eq (src dst : Edges) (x : FVec Ideal S100000x128 .f32) :
    scaled2 src dst (invdeg dst) x = Cert.ReferenceIdeal.RefValue.agg2 src dst x :=
  scale_eq_div _ _ _ _ _

end Cert.KernelIdeal.KAgg

end
-- ==== Proof.Blocks0.lean ====
/-
  The first region's output array as one function of the arrays the region finds.

  The region walks 20 grid points. At point t the body sees rows 5000·t … 5000·t + 4999 of the node features and of
  their neighbour aggregate (two 5000×64 blocks), the whole 64×128 self and neighbour weight matrices and the whole
  one-row bias, and stores a 5000×128 block: entry (p, q) is
  max (∑ₖ x(p,k)·ws(k,q) + ∑ₖ hn(p,k)·wn(k,q) + b(0,q)) 0 — the two products are sums over the shared axis of 64
  (narrowing the operands' format changes nothing on the extended reals, and the accumulators start at zero), the
  bias row is repeated down the rows, and the clamp is a maximum with zero. That block is written back to rows
  5000·t … 5000·t + 4999 of the output. An entry (r, q) of the output depends on row r of the two inputs only, so
  each stored block is the restriction of the first layer of the whole arrays to its rows; row r belongs to point
  r / 5000, the blocks cover the array, and the array ends as the first layer itself.
-/
import proofs.«153038_j40776419508824_1_alg».proof.Proof.Gen.KernelIdeal.Frame
import proofs.«153038_j40776419508824_1_alg».proof.Proof.Spec
import Idealize.ShloMosaic.Lib.Pipeline.Value
import Idealize.ShloMosaic.Lib.ValueIdx
import Idealize.ShloMosaic.PureOps.Ideal.Laws

noncomputable section

namespace Cert.KernelIdeal.Blocks0

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/-- The left operand's index at output index i and contraction index s: row i 0 ... -/
theorem lhs0_0 (i : S5000x128.Idx) (s : dot_S5000x64_S64x128_S5000x128_1_0_0_1_n_n.contr.Idx) :
    (dot_S5000x64_S64x128_S5000x128_1_0_0_1_n_n.lhsIdx i s 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- ... and column s. -/
theorem lhs0_1 (i : S5000x128.Idx) (s : dot_S5000x64_S64x128_S5000x128_1_0_0_1_n_n.contr.Idx) :
    (dot_S5000x64_S64x128_S5000x128_1_0_0_1_n_n.lhsIdx i s 1).val = (s ⟨0, by decide⟩).val :=
  dot_S5000x64_S64x128_S5000x128_1_0_0_1_n_n.lhsIdx_val_of_single rfl i s
/-- The right operand's index: row s ... -/
theorem rhs0_0 (i : S5000x128.Idx) (s : dot_S5000x64_S64x128_S5000x128_1_0_0_1_n_n.contr.Idx) :
    (dot_S5000x64_S64x128_S5000x128_1_0_0_1_n_n.rhsIdx i s 0).val = (s ⟨0, by decide⟩).val :=
  dot_S5000x64_S64x128_S5000x128_1_0_0_1_n_n.rhsIdx_val_of_single rfl i s
/-- ... and column i 1. -/
theorem rhs0_1 (i : S5000x128.Idx) (s : dot_S5000x64_S64x128_S5000x128_1_0_0_1_n_n.contr.Idx) :
    (dot_S5000x64_S64x128_S5000x128_1_0_0_1_n_n.rhsIdx i s 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A 5000×64 block times a 64×128 matrix into a zero accumulator, read at row p and column q: the plain sum of
    products over the shared axis. -/
theorem dot0_apply (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs0_0 _ _).trans hk
    | ⟨1, _⟩ => exact rhs0_1 _ _)
  rw [el, er]

/-- The bias row broadcast over the block's rows, read at row p and column q. -/
theorem bias0_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The first layer's block: entry (p, q) of what a grid point stores. -/
theorem pay0_apply (x0 x1 : Vec Ideal S5000x64 .f32) (x2 x3 : Vec Ideal S64x128 .f32) (x4 : Vec Ideal S1x128 .f32) (p : Fin 5000) (q : Fin 128) :
    k0_pay1 (F := Ideal) x0 x1 x2 x3 x4 (ix2 p q)
      = max (((∑ k : Fin 64, x0 (ix2 p k) * x2 (ix2 k q)) + (∑ k : Fin 64, x1 (ix2 p k) * x3 (ix2 k q))) + x4 (ix2 (0 : Fin 1) q)) 0 := by
  unfold k0_pay1
  simp only [shapeCast_self]
  rw [maximumf_apply, addf_apply, addf_apply, dot0_apply, dot0_apply, bias0_apply, broadcast_apply]
  simp only [truncf_apply]
  exact congrArg (max _) Ideal.ofBits_zero_f32

/-! ## From blocks to the array -/

theorem hz : (![0, 0] : Fin 2 → Nat) = fun _ => 0 := funext fun a => by fin_cases a <;> rfl

/-- The index maps over the grid: at point t the two row-blocked inputs and the output sit at block row t, block
    column 0; the weights and the bias always at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b)) (c : Dev nD)

/-- The node features' block at point t is rows 5000·t … 5000·t + 4999 of the array. -/
theorem blk0_0_apply (t : Fin cfg0.N) (p : Fin 5000) (k : Fin 64) (r : Fin 100000) (hr : r.val = t.val * 5000 + p.val) :
    (iblk0 V c 0 t : Vec Ideal S5000x64 .f32) (ix2 p k) = (V c (Pipeline.arrRef spec0 0) : S100000x64.Idx → EReal) (ix2 r k) := by
  obtain ⟨e00, e01, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; omega
  | ⟨1, _⟩ => show win0_0.index t (1 : Fin 2) * 64 + 1 * k.val = k.val; omega

/-- The neighbour aggregate's block at point t is the same rows of its array. -/
theorem blk0_1_apply (t : Fin cfg0.N) (p : Fin 5000) (k : Fin 64) (r : Fin 100000) (hr : r.val = t.val * 5000 + p.val) :
    (iblk0 V c 1 t : Vec Ideal S5000x64 .f32) (ix2 p k) = (V c (Pipeline.arrRef spec0 1) : S100000x64.Idx → EReal) (ix2 r k) := by
  obtain ⟨-, -, e10, e11, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = r.val; omega
  | ⟨1, _⟩ => show win0_1.index t (1 : Fin 2) * 64 + 1 * k.val = k.val; omega

/-- Each weight matrix's block is the whole matrix at every point. -/
theorem blk0_2_apply (t : Fin cfg0.N) (k : Fin 64) (q : Fin 128) :
    (iblk0 V c 2 t : Vec Ideal S64x128 .f32) (ix2 k q) = (V c (Pipeline.arrRef spec0 2) : S64x128.Idx → EReal) (ix2 k q) := by
  obtain ⟨-, -, -, -, e20, e21, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 64 + 1 * k.val = k.val; omega
  | ⟨1, _⟩ => show win0_2.index t (1 : Fin 2) * 128 + 1 * q.val = q.val; omega

theorem blk0_3_apply (t : Fin cfg0.N) (k : Fin 64) (q : Fin 128) :
    (iblk0 V c 3 t : Vec Ideal S64x128 .f32) (ix2 k q) = (V c (Pipeline.arrRef spec0 3) : S64x128.Idx → EReal) (ix2 k q) := by
  obtain ⟨-, -, -, -, -, -, e30, e31, -⟩ := idx_facts0 t
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 64 + 1 * k.val = k.val; omega
  | ⟨1, _⟩ => show win0_3.index t (1 : Fin 2) * 128 + 1 * q.val = q.val; omega

/-- The bias row's block is the whole row at every point. -/
theorem blk0_4_apply (t : Fin cfg0.N) (q : Fin 128) :
    (iblk0 V c 4 t : Vec Ideal S1x128 .f32) (ix2 (0 : Fin 1) q) = (V c (Pipeline.arrRef spec0 4) : S1x128.Idx → EReal) (ix2 (0 : Fin 1) q) := by
  obtain ⟨-, -, -, -, -, -, -, -, e40, e41, -⟩ := idx_facts0 t
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

end

/-- Blocks that are the rows of the arrays at array index i, and the whole weights and bias, give the layer's entry
    at i: the stored block's entry (p, q) is the first layer at i when row p of the two input blocks is row i 0 of
    the arrays and column q is column i 1. -/
theorem pay0_eq_layer1 (A0 A1 : Cert.Sage.Mat 100000 64) (A2 A3 : Cert.Sage.Mat 64 128) (A4 : Cert.Sage.Mat 1 128)
    (x0 x1 : Vec Ideal S5000x64 .f32) (x2 x3 : Vec Ideal S64x128 .f32) (x4 : Vec Ideal S1x128 .f32)
    (i : S100000x128.Idx) (p : Fin 5000) (q : Fin 128)
    (h0 : ∀ k : Fin 64, x0 (ix2 p k) = A0 (ix2 (i 0 : Fin 100000) k))
    (h1 : ∀ k : Fin 64, x1 (ix2 p k) = A1 (ix2 (i 0 : Fin 100000) k))
    (h2 : ∀ k : Fin 64, x2 (ix2 k q) = A2 (ix2 k (i 1 : Fin 128)))
    (h3 : ∀ k : Fin 64, x3 (ix2 k q) = A3 (ix2 k (i 1 : Fin 128)))
    (h4 : x4 (ix2 (0 : Fin 1) q) = A4 (ix2 (0 : Fin 1) (i 1 : Fin 128))) :
    k0_pay1 (F := Ideal) x0 x1 x2 x3 x4 (ix2 p q) = Cert.Sage.layer1 A0 A1 A2 A3 A4 i := by
  rw [pay0_apply]
  unfold Cert.Sage.layer1
  simp only [h0, h1, h2, h3, h4]

section
variable (V : (c : Dev nD) → (b : Ref sig .tc) → Buf (Elt Ideal) ((c : Thread nD τ).loc b)) (c : Dev nD)

/-- What point t writes back is block t of the first layer of the arrays as the region finds them. -/
theorem flushed0 (t : Fin cfg0.N) :
    (dat0 (F := Ideal) V c).flushed 5 t = ((cfg0.win 5).blk t).view.read (Elt Ideal)
      (Cert.Sage.layer1 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x128) hz, View.ld_unit_zero (S := S1x128) hz]
  obtain ⟨-, -, -, -, -, -, -, -, -, -, e50, e51⟩ := idx_facts0 t
  funext j
  obtain ⟨p, q, rfl⟩ : ∃ (p : Fin 5000) (q : Fin 128), j = ix2 p q := ⟨j 0, j 1, eq_ix2 j⟩
  rw [View.read_apply]
  have hr : ((((cfg0.win 5).blk t).view.emb (ix2 p q)) 0).val = t.val * 5000 + p.val := by
    show win0_5.index t (0 : Fin 2) * 5000 + 1 * p.val = _; omega
  have hq : ((((cfg0.win 5).blk t).view.emb (ix2 p q)) 1) = q := Fin.ext (by
    show win0_5.index t (1 : Fin 2) * 128 + 1 * q.val = _; omega)
  refine pay0_eq_layer1 (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t)
    (((cfg0.win 5).blk t).view.emb (ix2 p q)) p q ?_ ?_ ?_ ?_ ?_
  · exact fun k => blk0_0_apply V c t p k _ hr
  · exact fun k => blk0_1_apply V c t p k _ hr
  · intro k; rw [hq]; exact blk0_2_apply V c t k q
  · intro k; rw [hq]; exact blk0_3_apply V c t k q
  · rw [hq]; exact blk0_4_apply V c t q

end

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every row of the output is some point's: row r lies in the block of point r / 5000. -/
theorem cover0 (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  refine ⟨⟨(i 0).val / 5000, by omega⟩, flush0_5 _, ?_⟩
  obtain ⟨-, -, -, -, -, -, -, -, -, -, e50, e51⟩ := idx_facts0 ⟨(i 0).val / 5000, by omega⟩
  rw [mem_blk0]
  intro a
  match a with
  | ⟨0, _⟩ =>
    show win0_5.index _ (0 : Fin 2) * 5000 ≤ (i 0).val ∧ (i 0).val < win0_5.index _ (0 : Fin 2) * 5000 + 5000
    rw [e50]
    show (i 0).val / 5000 * 5000 ≤ (i 0).val ∧ (i 0).val < (i 0).val / 5000 * 5000 + 5000
    omega
  | ⟨1, _⟩ =>
    show win0_5.index _ (1 : Fin 2) * 128 ≤ (i 1).val ∧ (i 1).val < win0_5.index _ (1 : Fin 2) * 128 + 128
    rw [e51]
    omega

/-- The first region's output array after the run is the first layer of the arrays the region finds. -/
theorem region0 (V : (c : Dev nD) → (b : Ref sig .tc) → Buf (Elt Ideal) ((c : Thread nD τ).loc b)) (c : Dev nD) :
    (dat0 (F := Ideal) V c).arrAt 5 cfg0.N = Cert.Sage.layer1 (V c (Pipeline.arrRef spec0 0)) (V c (Pipeline.arrRef spec0 1))
      (V c (Pipeline.arrRef spec0 2)) (V c (Pipeline.arrRef spec0 3)) (V c (Pipeline.arrRef spec0 4)) :=
  (dat0 (F := Ideal) V c).arrAt_eq_of_cover 5 _ (fun t _ => flushed0 V c t) cover0

end Cert.KernelIdeal.Blocks0

end
-- ==== Proof.Blocks1.lean ====
/-
  The second region's output array as one function of the arrays the region finds.

  The region walks 20 grid points. At point t the body sees rows 5000·t … 5000·t + 4999 of the layer's input and of
  its neighbour aggregate (two 5000×128 blocks), the whole 128×64 self and neighbour weight matrices and the whole
  one-row bias, and stores a 5000×64 block: entry (p, q) is ∑ₖ x(p,k)·ws(k,q) + ∑ₖ hn(p,k)·wn(k,q) + b(0,q) — the two
  products are sums over the shared axis of 128 (narrowing the operands' format changes nothing on the extended
  reals, and the accumulators start at zero) and the bias row is repeated down the rows; nothing is clamped. That
  block is written back to rows 5000·t … 5000·t + 4999 of the output. An entry (r, q) of the output depends on row r
  of the two inputs only, so each stored block is the restriction of the second layer of the whole arrays to its
  rows; row r belongs to point r / 5000, the blocks cover the array, and the array ends as the second layer itself.
-/
import proofs.«153038_j40776419508824_1_alg».proof.Proof.Gen.KernelIdeal.Frame
import proofs.«153038_j40776419508824_1_alg».proof.Proof.Spec
import Idealize.ShloMosaic.Lib.Pipeline.Value
import Idealize.ShloMosaic.Lib.ValueIdx
import Idealize.ShloMosaic.PureOps.Ideal.Laws

noncomputable section

namespace Cert.KernelIdeal.Blocks1

open Idealize.ShloMosaic Idealize.ShloMosaic.TcCoe Idealize.ShloMosaic.ValueIdx Idealize.SL.Sem Cert.KernelIdeal Cert.KernelIdeal.Gen
open Idealize.ShloMosaic.Pipeline (Dat)
open scoped BigOperators

/-- The left operand's index at output index i and contraction index s: row i 0 ... -/
theorem lhs1_0 (i : S5000x64.Idx) (s : dot_S5000x128_S128x64_S5000x64_1_0_0_1_n_n.contr.Idx) :
    (dot_S5000x128_S128x64_S5000x64_1_0_0_1_n_n.lhsIdx i s 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- ... and column s. -/
theorem lhs1_1 (i : S5000x64.Idx) (s : dot_S5000x128_S128x64_S5000x64_1_0_0_1_n_n.contr.Idx) :
    (dot_S5000x128_S128x64_S5000x64_1_0_0_1_n_n.lhsIdx i s 1).val = (s ⟨0, by decide⟩).val :=
  dot_S5000x128_S128x64_S5000x64_1_0_0_1_n_n.lhsIdx_val_of_single rfl i s
/-- The right operand's index: row s ... -/
theorem rhs1_0 (i : S5000x64.Idx) (s : dot_S5000x128_S128x64_S5000x64_1_0_0_1_n_n.contr.Idx) :
    (dot_S5000x128_S128x64_S5000x64_1_0_0_1_n_n.rhsIdx i s 0).val = (s ⟨0, by decide⟩).val :=
  dot_S5000x128_S128x64_S5000x64_1_0_0_1_n_n.rhsIdx_val_of_single rfl i s
/-- ... and column i 1. -/
theorem rhs1_1 (i : S5000x64.Idx) (s : dot_S5000x128_S128x64_S5000x64_1_0_0_1_n_n.contr.Idx) :
    (dot_S5000x128_S128x64_S5000x64_1_0_0_1_n_n.rhsIdx i s 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A 5000×128 block times a 128×64 matrix into a zero accumulator, read at row p and column q: the plain sum of
    products over the shared axis. -/
theorem dot1_apply (l : FVec Ideal S5000x128 .bf16) (r : FVec Ideal S128x64 .bf16) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The bias row broadcast over the block's rows, read at row p and column q. -/
theorem bias1_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => by show (0 : Nat) = if (1 : Nat) = 1 then 0 else p.val; rw [if_pos rfl]
    | ⟨1, _⟩ => by show q.val = if (64 : Nat) = 1 then 0 else q.val; rw [if_neg (by decide)])

/-- The second layer's block: entry (p, q) of what a grid point stores. -/
theorem pay1_apply (x0 x1 : Vec Ideal S5000x128 .f32) (x2 x3 : Vec Ideal S128x64 .f32) (x4 : Vec Ideal S1x64 .f32) (p : Fin 5000) (q : Fin 64) :
    k1_pay1 (F := Ideal) x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k1_pay1
  simp only [shapeCast_self]
  rw [addf_apply, addf_apply, dot1_apply, dot1_apply, bias1_apply]
  simp only [truncf_apply]

/-! ## From blocks to the array -/

theorem hz : (![0, 0] : Fin 2 → Nat) = fun _ => 0 := funext fun a => by fin_cases a <;> rfl

/-- The index maps over the grid: at point t the two row-blocked inputs and the output sit at block row t, block
    column 0; the weights and the bias always at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b)) (c : Dev nD)

/-- The layer's input block at point t is rows 5000·t … 5000·t + 4999 of the array. -/
theorem blk1_0_apply (t : Fin cfg1.N) (p : Fin 5000) (k : Fin 128) (r : Fin 100000) (hr : r.val = t.val * 5000 + p.val) :
    (iblk1 V c 0 t : Vec Ideal S5000x128 .f32) (ix2 p k) = (V c (Pipeline.arrRef spec1 0) : S100000x128.Idx → EReal) (ix2 r k) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- The neighbour aggregate's block at point t is the same rows of its array. -/
theorem blk1_1_apply (t : Fin cfg1.N) (p : Fin 5000) (k : Fin 128) (r : Fin 100000) (hr : r.val = t.val * 5000 + p.val) :
    (iblk1 V c 1 t : Vec Ideal S5000x128 .f32) (ix2 p k) = (V c (Pipeline.arrRef spec1 1) : S100000x128.Idx → EReal) (ix2 r k) := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- Each weight matrix's block is the whole matrix at every point. -/
theorem blk1_2_apply (t : Fin cfg1.N) (k : Fin 128) (q : Fin 64) :
    (iblk1 V c 2 t : Vec Ideal S128x64 .f32) (ix2 k q) = (V c (Pipeline.arrRef spec1 2) : S128x64.Idx → EReal) (ix2 k q) := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * k.val = k.val; omega
  | ⟨1, _⟩ => show win1_2.index t (1 : Fin 2) * 64 + 1 * q.val = q.val; omega

/-- The neighbour weights likewise. -/
theorem blk1_3_apply (t : Fin cfg1.N) (k : Fin 128) (q : Fin 64) :
    (iblk1 V c 3 t : Vec Ideal S128x64 .f32) (ix2 k q) = (V c (Pipeline.arrRef spec1 3) : S128x64.Idx → EReal) (ix2 k q) := by
  obtain ⟨-, -, -, -, -, -, e0, e1, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * k.val = k.val; omega
  | ⟨1, _⟩ => show win1_3.index t (1 : Fin 2) * 64 + 1 * q.val = q.val; omega

/-- The bias row's block is the whole row at every point. -/
theorem blk1_4_apply (t : Fin cfg1.N) (q : Fin 64) :
    (iblk1 V c 4 t : Vec Ideal S1x64 .f32) (ix2 (0 : Fin 1) q) = (V c (Pipeline.arrRef spec1 4) : S1x64.Idx → EReal) (ix2 (0 : Fin 1) q) := by
  obtain ⟨-, -, -, -, -, -, -, -, e0, e1, -⟩ := idx_facts1 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (0 : Fin 1).val = (0 : Fin 1).val; omega
  | ⟨1, _⟩ => show win1_4.index t (1 : Fin 2) * 64 + 1 * q.val = q.val; omega

end

/-- Blocks that are the rows of the arrays at array index i, and the whole weights and bias, give the layer's entry
    at i: the stored block's entry (p, q) is the second layer at i when row p of the two input blocks is row i 0 of
    the arrays and column q is column i 1. -/
theorem pay1_eq_layer2 (A0 A1 : Cert.Sage.Mat 100000 128) (A2 A3 : Cert.Sage.Mat 128 64) (A4 : Cert.Sage.Mat 1 64)
    (x0 x1 : Vec Ideal S5000x128 .f32) (x2 x3 : Vec Ideal S128x64 .f32) (x4 : Vec Ideal S1x64 .f32)
    (i : S100000x64.Idx) (p : Fin 5000) (q : Fin 64)
    (h0 : ∀ k : Fin 128, x0 (ix2 p k) = A0 (ix2 (i 0 : Fin 100000) k))
    (h1 : ∀ k : Fin 128, x1 (ix2 p k) = A1 (ix2 (i 0 : Fin 100000) k))
    (h2 : ∀ k : Fin 128, x2 (ix2 k q) = A2 (ix2 k (i 1 : Fin 64)))
    (h3 : ∀ k : Fin 128, x3 (ix2 k q) = A3 (ix2 k (i 1 : Fin 64)))
    (h4 : x4 (ix2 (0 : Fin 1) q) = A4 (ix2 (0 : Fin 1) (i 1 : Fin 64))) :
    k1_pay1 (F := Ideal) x0 x1 x2 x3 x4 (ix2 p q) = Cert.Sage.layer2 A0 A1 A2 A3 A4 i := by
  rw [pay1_apply]
  unfold Cert.Sage.layer2
  simp only [h0, h1, h2, h3, h4]

section
variable (V : (c : Dev nD) → (b : Ref sig .tc) → Buf (Elt Ideal) ((c : Thread nD τ).loc b)) (c : Dev nD)

/-- What point t writes back is block t of the second layer of the arrays as the region finds them. -/
theorem flushed1 (t : Fin cfg1.N) :
    (dat1 (F := Ideal) V c).flushed 5 t = ((cfg1.win 5).blk t).view.read (Elt Ideal)
      (Cert.Sage.layer2 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨-, -, -, -, -, -, -, -, -, -, e50, e51⟩ := idx_facts1 t
  funext j
  obtain ⟨p, q, rfl⟩ : ∃ (p : Fin 5000) (q : Fin 64), j = ix2 p q := ⟨j 0, j 1, eq_ix2 j⟩
  rw [View.read_apply]
  have hr : ((((cfg1.win 5).blk t).view.emb (ix2 p q)) 0).val = t.val * 5000 + p.val := by
    show win1_5.index t (0 : Fin 2) * 5000 + 1 * p.val = _; omega
  have hq : ((((cfg1.win 5).blk t).view.emb (ix2 p q)) 1) = q := Fin.ext (by
    show win1_5.index t (1 : Fin 2) * 64 + 1 * q.val = _; omega)
  refine pay1_eq_layer2 (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t)
    (((cfg1.win 5).blk t).view.emb (ix2 p q)) p q ?_ ?_ ?_ ?_ ?_
  · exact fun k => blk1_0_apply V c t p k _ hr
  · exact fun k => blk1_1_apply V c t p k _ hr
  · intro k; rw [hq]; exact blk1_2_apply V c t k q
  · intro k; rw [hq]; exact blk1_3_apply V c t k q
  · rw [hq]; exact blk1_4_apply V c t q

end

/-- An index of the output array is in point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v36).slice (win1_5.rect t)).set ↔ _
  rw [View.set_slice_whole, Rect.mem_set_unit]
  exact Iff.rfl

/-- Every row of the output is some point's: row r lies in the block of point r / 5000. -/
theorem cover1 (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  refine ⟨⟨(i 0).val / 5000, by omega⟩, flush1_5 _, ?_⟩
  obtain ⟨-, -, -, -, -, -, -, -, -, -, e50, e51⟩ := idx_facts1 ⟨(i 0).val / 5000, by omega⟩
  rw [mem_blk1]
  intro a
  match a with
  | ⟨0, _⟩ =>
    show win1_5.index _ (0 : Fin 2) * 5000 ≤ (i 0).val ∧ (i 0).val < win1_5.index _ (0 : Fin 2) * 5000 + 5000
    rw [e50]
    show (i 0).val / 5000 * 5000 ≤ (i 0).val ∧ (i 0).val < (i 0).val / 5000 * 5000 + 5000
    omega
  | ⟨1, _⟩ =>
    show win1_5.index _ (1 : Fin 2) * 64 ≤ (i 1).val ∧ (i 1).val < win1_5.index _ (1 : Fin 2) * 64 + 64
    rw [e51]
    omega

/-- The second region's output array after the run is the second layer of the arrays the region finds. -/
theorem region1 (V : (c : Dev nD) → (b : Ref sig .tc) → Buf (Elt Ideal) ((c : Thread nD τ).loc b)) (c : Dev nD) :
    (dat1 (F := Ideal) V c).arrAt 5 cfg1.N = Cert.Sage.layer2 (V c (Pipeline.arrRef spec1 0)) (V c (Pipeline.arrRef spec1 1))
      (V c (Pipeline.arrRef spec1 2)) (V c (Pipeline.arrRef spec1 3)) (V c (Pipeline.arrRef spec1 4)) :=
  (dat1 (F := Ideal) V c).arrAt_eq_of_cover 5 _ (fun t _ => flushed1 V c t) cover1

end Cert.KernelIdeal.Blocks1

end
-- ==== Proof.KChain.lean ====
/-
  The kernel program's result, read back to the launch arguments.

  The buffer contents at the program's segment boundaries form a chain: the launch memory; after the first stretch of
  host operations; after the first call; after the second stretch; after the second call. Each buffer the calls read
  is followed back through the chain. The first stretch leaves the reciprocal of every node's clamped edge count and
  the node features' summed neighbour rows times it, and the bias as a one-row matrix; the first call's output is
  then the first layer of these (the hidden features). The second stretch forms the hidden features' summed
  neighbour rows times the same reciprocal column; the second call's output is the second layer of the hidden
  features and that. Multiplying by the reciprocal column is dividing by the count, so the result is the two-layer
  network with the reference's neighbour mean in both layers.
-/
import proofs.«153038_j40776419508824_1_alg».proof.Proof.Gen.KernelIdeal.Frame
import proofs.«153038_j40776419508824_1_alg».proof.Proof.KAgg
import proofs.«153038_j40776419508824_1_alg».proof.Proof.Blocks0
import proofs.«153038_j40776419508824_1_alg».proof.Proof.Blocks1
import Idealize.ShloMosaic.Lib.StableHlo.Run
import Idealize.ShloMosaic.Lib.ValueLayout
import Idealize.ShloMosaic.PureOps.Ideal
set_option maxRecDepth 16384

noncomputable section

namespace Cert.KernelIdeal.KChain

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx
open Cert.KernelIdeal.KAgg

variable (m : (ℓ : Loc nD τ sig) → Buf (Elt Ideal) ℓ) (ρ : Dev nD → PrngReg)

/-- A vector recast as a one-row matrix is the vector read along the row. -/
theorem reshape_row {a : Nat} (b : (⟨1, ![a]⟩ : Shape).Idx → EReal) (h : (⟨1, ![a]⟩ : Shape).ShapeCasts ⟨2, ![1, a]⟩) :
    shapeCast ⟨2, ![1, a]⟩ b h = Cert.Sage.row b := by
  funext i
  obtain ⟨u, q, rfl⟩ : ∃ (u : Fin 1) (q : Fin a), i = ix2 u q := ⟨i 0, i 1, eq_ix2 i⟩
  rw [shapeCast_a_1a_apply]
  rfl

/-! ## The first stretch of host operations, read from the launch memory -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results

/-- The reciprocal-count column the first stretch leaves. -/
theorem W1_v8 (c : Dev nD) : W1 m ρ c (Proc.devRef .tc main_v8) = invdeg (m ((c : Thread nD τ).loc main_arg2)) := by
  show StableHlo.after hostOps0 (W0 m ρ c) (Proc.devRef .tc main_v8) = _
  after_results_simp; rfl

set_option maxHeartbeats 8000000 in
/-- The first call's neighbour operand: the summed rows times the reciprocal column. -/
theorem W1_v20 (c : Dev nD) : W1 m ρ c (Proc.devRef .tc main_v20)
    = scaled1 (m ((c : Thread nD τ).loc main_arg1)) (m ((c : Thread nD τ).loc main_arg2)) (invdeg (m ((c : Thread nD τ).loc main_arg2))) (m ((c : Thread nD τ).loc main_arg0)) := by
  show StableHlo.after hostOps0 (W0 m ρ c) (Proc.devRef .tc main_v20) = _
  after_results_simp; rfl

/-- The first call's bias operand: the bias as a one-row matrix. -/
theorem W1_v21 (c : Dev nD) : W1 m ρ c (Proc.devRef .tc main_v21) = Cert.Sage.row (m ((c : Thread nD τ).loc main_arg5)) := by
  show StableHlo.after hostOps0 (W0 m ρ c) (Proc.devRef .tc main_v21) = _
  after_results
  exact reshape_row _ _

/-! ## The first call -/

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_v8 (c : Dev nD) : W2 m ρ c (Proc.devRef .tc main_v8) = invdeg (m ((c : Thread nD τ).loc main_arg2)) :=
  (W2_of_ne m ρ c main_v8 (by decide)).trans (W1_v8 m ρ c)

/-- The hidden features: the first call's output array is the first layer of the node features and their
    neighbour mean. -/
def hidden (c : Dev nD) : Cert.Sage.Mat 100000 128 :=
  Cert.Sage.layer1 (m ((c : Thread nD τ).loc main_arg0)) (scaled1 (m ((c : Thread nD τ).loc main_arg1)) (m ((c : Thread nD τ).loc main_arg2)) (invdeg (m ((c : Thread nD τ).loc main_arg2))) (m ((c : Thread nD τ).loc main_arg0))) (m ((c : Thread nD τ).loc main_arg3)) (m ((c : Thread nD τ).loc main_arg4)) (Cert.Sage.row (m ((c : Thread nD τ).loc main_arg5)))

theorem W2_v22 (c : Dev nD) : W2 m ρ c (Proc.devRef .tc main_v22) = hidden m c := by
  refine (W2_arr m ρ c 5).trans ?_
  rw [Cert.KernelIdeal.Blocks0.region0 (V1 m ρ) c]
  unfold hidden
  rw [show V1 m ρ c (Pipeline.arrRef spec0 0) = m ((c : Thread nD τ).loc main_arg0) from W1_arg0 m ρ c,
    show V1 m ρ c (Pipeline.arrRef spec0 1) = _ from W1_v20 m ρ c,
    show V1 m ρ c (Pipeline.arrRef spec0 2) = m ((c : Thread nD τ).loc main_arg3) from W1_arg3 m ρ c,
    show V1 m ρ c (Pipeline.arrRef spec0 3) = m ((c : Thread nD τ).loc main_arg4) from W1_arg4 m ρ c,
    show V1 m ρ c (Pipeline.arrRef spec0 4) = _ from W1_v21 m ρ c]

/-! ## The second stretch of host operations and the second call -/

theorem W3_v22 (c : Dev nD) : W3 m ρ c (Proc.devRef .tc main_v22) = hidden m c := by
  refine Eq.trans ?_ (W2_v22 m ρ c)
  show StableHlo.after hostOps1 (W2 m ρ c) (Proc.devRef .tc main_v22) = _
  after_results <;> rfl
theorem W3_arg6 (c : Dev nD) : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  after_results <;> rfl
theorem W3_arg7 (c : Dev nD) : W3 m ρ c (Proc.devRef .tc main_arg7) = m ((c : Thread nD τ).loc main_arg7) := by
  refine Eq.trans ?_ (W2_arg7 m ρ c)
  show StableHlo.after hostOps1 (W2 m ρ c) (Proc.devRef .tc main_arg7) = _
  after_results <;> rfl

set_option maxHeartbeats 8000000 in
/-- The second call's neighbour operand: the summed hidden rows times the same reciprocal column. -/
theorem W3_v34 (c : Dev nD) : W3 m ρ c (Proc.devRef .tc main_v34)
    = scaled2 (m ((c : Thread nD τ).loc main_arg1)) (m ((c : Thread nD τ).loc main_arg2)) (invdeg (m ((c : Thread nD τ).loc main_arg2))) (hidden m c) := by
  rw [← W2_v22 m ρ c, ← W2_v8 m ρ c, ← W2_arg1 m ρ c, ← W2_arg2 m ρ c]
  show StableHlo.after hostOps1 (W2 m ρ c) (Proc.devRef .tc main_v34) = _
  after_results_simp <;> rfl

/-- The second call's bias operand: the bias as a one-row matrix. -/
theorem W3_v35 (c : Dev nD) : W3 m ρ c (Proc.devRef .tc main_v35) = Cert.Sage.row (m ((c : Thread nD τ).loc main_arg8)) := by
  rw [← W2_arg8 m ρ c]
  show StableHlo.after hostOps1 (W2 m ρ c) (Proc.devRef .tc main_v35) = _
  after_results
  exact reshape_row _ _

/-- THE RESULT: the last boundary's contents at the result buffer are the two-layer network of the launch arguments,
    each layer's neighbour mean the reference's. -/
theorem out_eq (c : Dev nD) : W4 m ρ c (Proc.devRef .tc main_v36)
    = Cert.Sage.net (Cert.ReferenceIdeal.RefValue.agg1 (m ((c : Thread nD τ).loc main_arg1)) (m ((c : Thread nD τ).loc main_arg2))) (Cert.ReferenceIdeal.RefValue.agg2 (m ((c : Thread nD τ).loc main_arg1)) (m ((c : Thread nD τ).loc main_arg2)))
        (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ?_
  rw [Cert.KernelIdeal.Blocks1.region1 (V3 m ρ) c]
  rw [show V3 m ρ c (Pipeline.arrRef spec1 0) = _ from W3_v22 m ρ c,
    show V3 m ρ c (Pipeline.arrRef spec1 1) = _ from W3_v34 m ρ c,
    show V3 m ρ c (Pipeline.arrRef spec1 2) = m ((c : Thread nD τ).loc main_arg6) from W3_arg6 m ρ c,
    show V3 m ρ c (Pipeline.arrRef spec1 3) = m ((c : Thread nD τ).loc main_arg7) from W3_arg7 m ρ c,
    show V3 m ρ c (Pipeline.arrRef spec1 4) = _ from W3_v35 m ρ c]
  unfold hidden
  rw [mean1_eq, mean2_eq]
  rfl

end Cert.KernelIdeal.KChain

end
-- ==== Proof.RefNet.lean ====
/-
  The reference's result is the two-layer network of the specification, index by index.

  On the extended reals a `dot_general` with one contracted axis, read at entry `(p, q)`, is the plain sum
  `∑ₖ l (p, k) · r (k, q)`; a bias vector broadcast first to a one-row matrix and then down the rows reads, at `(p, q)`,
  its `q`-th entry; the broadcast zero constant reads `0` everywhere. Hence each layer's term — two products added, the
  bias added, and for the first layer a maximum with zero — is the specification's layer at every entry, whatever its
  operands are. The composed term of the whole run is then the second layer applied to the first layer's output and to
  that output's neighbour aggregate; the aggregation (gather, scatter-add, clamped count, divide) is carried along
  unopened on both sides.
-/
import proofs.«153038_j40776419508824_1_alg».proof.Proof.Gen.ReferenceIdeal.Read
import proofs.«153038_j40776419508824_1_alg».proof.Proof.Spec
import proofs.«153038_j40776419508824_1_alg».proof.Proof.RefAgg

noncomputable section

namespace Cert.ReferenceIdeal.RefValue

open Idealize.ShloMosaic Idealize.ShloMosaic.TcCoe Idealize.SL.Sem Cert.ReferenceIdeal Cert.ReferenceIdeal.Gen
open Idealize.ShloMosaic.ValueIdx Cert.ReferenceIdeal.Read
open scoped BigOperators

/-! ## The matrix products at an entry -/

/-- A `[100000, 64] × [64, 128]` product at entry `(p, q)`: the sum over the 64 shared coordinates. The operand
    indices of the general reading, `(p, k)` and `(k, q)` given by their coordinates, are `ix2 p k` and `ix2 k q`. -/
theorem dot1_apply (x : FVec Ideal S100000x64 .f32) (w : FVec Ideal S64x128 .f32) (p : Fin 100000) (q : Fin 128) :
    Host.dotGeneral (F := Ideal) dot_S100000x64_S64x128_S100000x128_1_0_0_1_n_n none x w (ix2 p q)
      = ∑ k : Fin 64, x (ix2 p k) * w (ix2 k q) := by
  have h := val_main_v19_apply x w (ix2 p q)
  unfold val_main_v19 at h
  rw [h]
  refine Finset.sum_congr rfl fun k _ => ?_
  have e1 : lidx_main_v19 (ix2 p q) k = ix2 p k :=
    funext fun a => Fin.ext (by match a with | ⟨0, _⟩ => rfl | ⟨1, _⟩ => rfl)
  have e2 : ridx_main_v19 (ix2 p q) k = ix2 k q :=
    funext fun a => Fin.ext (by match a with | ⟨0, _⟩ => rfl | ⟨1, _⟩ => rfl)
  rw [e1, e2]

/-- A `[100000, 128] × [128, 64]` product at entry `(p, q)`: the sum over the 128 shared coordinates. The sum over the
    one-axis contraction index is re-indexed by that axis's coordinate; at coordinate `k` the left operand is read at
    `(p, k)` and the right at `(k, q)`. -/
theorem dot2_apply (x : FVec Ideal S100000x128 .f32) (w : FVec Ideal S128x64 .f32) (p : Fin 100000) (q : Fin 64) :
    Host.dotGeneral (F := Ideal) dot_S100000x128_S128x64_S100000x64_1_0_0_1_n_n none x w (ix2 p q)
      = ∑ k : Fin 128, x (ix2 p k) * w (ix2 k q) := by
  simp only [Host.dotGeneral]
  rw [Ideal.dotGeneral_apply,
    ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q)
      ((ValueIdx.contrEquiv1 dot_S100000x128_S128x64_S100000x64_1_0_0_1_n_n 128 rfl rfl).symm k) = ix2 p k :=
    funext fun a => Fin.ext (by
      match a with
      | ⟨0, _⟩ => exact lhs_main_v45_0 _ _
      | ⟨1, _⟩ => exact (lhs_main_v45_1 _ _).trans hk)
  have er : dot_S100000x128_S128x64_S100000x64_1_0_0_1_n_n.rhsIdx (ix2 p q)
      ((ValueIdx.contrEquiv1 dot_S100000x128_S128x64_S100000x64_1_0_0_1_n_n 128 rfl rfl).symm k) = ix2 k q :=
    funext fun a => Fin.ext (by
      match a with
      | ⟨0, _⟩ => exact (rhs_main_v45_0 _ _).trans hk
      | ⟨1, _⟩ => exact rhs_main_v45_1 _ _)
  rw [el, er]

/-! ## The broadcast bias and the broadcast zero at an entry -/

/-- The 128-entry bias, made a one-row matrix and repeated down the 100000 rows, reads its `q`-th entry at `(p, q)`:
    the row axis of the one-row matrix has extent one, so the row coordinate is dropped. -/
theorem bias1_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  have h1 := val_main_v23_apply (F := Ideal) b (ix2 p q)
  have h2 := val_main_v22_apply (F := Ideal) b (idx_main_v23 (ix2 p q))
  unfold val_main_v23 at h1
  unfold val_main_v22 at h1 h2
  rw [h1, h2]
  exact congrArg b (funext fun a => Fin.ext (by match a with | ⟨0, _⟩ => rfl))

/-- The same for the 64-entry bias of the second layer. -/
theorem bias2_apply (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  have h1 := val_main_v49_apply (F := Ideal) b (ix2 p q)
  have h2 := val_main_v48_apply (F := Ideal) b (idx_main_v49 (ix2 p q))
  unfold val_main_v49 at h1
  unfold val_main_v48 at h1 h2
  rw [h1, h2]
  exact congrArg b (funext fun a => Fin.ext (by match a with | ⟨0, _⟩ => rfl))

/-- The scalar constant whose word is all zero bits, broadcast over the matrix, is the extended real `0` at every entry. -/
theorem zero_apply (i : S100000x128.Idx) :
    broadcastInDim S100000x128 ![] bcast_S_S100000x128 (constant (F := Ideal) S_ .f32 0x00000000#32) i = (0 : EReal) := by
  have h1 := val_main_call0_v0_apply (F := Ideal) i
  unfold val_main_call0_v0 val_main_call0_cst at h1
  rw [h1]
  exact Ideal.ofBits_zero_f32

/-! ## The two layers, for arbitrary operands -/

/-- The first layer's term is the specification's first layer: at `(p, q)` both sides are
    `max (∑ₖ x (p, k) · ws (k, q) + ∑ₖ hn (p, k) · wn (k, q) + b q) 0`. -/
theorem layer1_eq (x hn : FVec Ideal S100000x64 .f32) (ws wn : FVec Ideal S64x128 .f32) (b : FVec Ideal S128 .f32) :
    maximumf (addf (addf (Host.dotGeneral (F := Ideal) dot_S100000x64_S64x128_S100000x128_1_0_0_1_n_n none x ws) (Host.dotGeneral (F := Ideal) dot_S100000x64_S64x128_S100000x128_1_0_0_1_n_n none hn wn)) (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))
      = Cert.Sage.layer1 x hn ws wn (Cert.Sage.row b) := by
  funext i
  obtain ⟨p, q, rfl⟩ : ∃ (p : Fin 100000) (q : Fin 128), i = ix2 p q := ⟨i 0, i 1, eq_ix2 i⟩
  rw [maximumf_apply, addf_apply, addf_apply, dot1_apply, dot1_apply, bias1_apply, zero_apply]
  rfl

/-- The second layer's term is the specification's second layer: at `(p, q)` both sides are
    `∑ₖ x (p, k) · ws (k, q) + ∑ₖ hn (p, k) · wn (k, q) + b q`. -/
theorem layer2_eq (x hn : FVec Ideal S100000x128 .f32) (ws wn : FVec Ideal S128x64 .f32) (b : FVec Ideal S64 .f32) :
    addf (addf (Host.dotGeneral (F := Ideal) dot_S100000x128_S128x64_S100000x64_1_0_0_1_n_n none x ws) (Host.dotGeneral (F := Ideal) dot_S100000x128_S128x64_S100000x64_1_0_0_1_n_n none hn wn)) (broadcastInDim S100000x64 ![0, 1] bcast_S1x64_S100000x64_0_1 (broadcastInDim S1x64 ![1] bcast_S64_S1x64_1 b))
      = Cert.Sage.layer2 x hn ws wn (Cert.Sage.row b) := by
  funext i
  obtain ⟨p, q, rfl⟩ : ∃ (p : Fin 100000) (q : Fin 64), i = ix2 p q := ⟨i 0, i 1, eq_ix2 i⟩
  rw [addf_apply, addf_apply, dot2_apply, dot2_apply, bias2_apply]
  rfl

/-! ## The whole run -/

/-- The run's result is the network: the first layer's term (it occurs twice, as the second layer's input and inside
    that input's aggregate) is the specification's first layer, the outer term the second layer of it and of its
    aggregate; what remains on both sides is the same aggregation, spelt out on the left and named on the right. -/
theorem res_eq (m : (ℓ : Loc nD τ sig) → Buf (Elt Ideal) ℓ) (c : Dev nD) :
    Cert.ReferenceIdeal.Value.res_main_v50 (F := Ideal) m c
      = Cert.Sage.net (agg1 (m ((c.tc : Thread nD τ).loc main_arg1)) (m ((c.tc : Thread nD τ).loc main_arg2)))
          (agg2 (m ((c.tc : Thread nD τ).loc main_arg1)) (m ((c.tc : Thread nD τ).loc main_arg2)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := by
  unfold Cert.ReferenceIdeal.Value.res_main_v50
  rw [layer1_eq, layer2_eq]
  rfl

end Cert.ReferenceIdeal.RefValue

end
-- ==== Proof.lean ====
/-
  The certificate of a two-layer mean-aggregation graph convolution: the kernel program against its reference, on the
  extended reals.

  Both programs compute, for node features `x`, edge lists `src`, `dst` and two layers of weights and biases,
  `h = max (x · Wself₁ + mean(x) · Wneigh₁ + b₁) 0` and then `h · Wself₂ + mean(h) · Wneigh₂ + b₂`, where `mean` adds at
  every node the rows of the sources of its incoming edges and divides by the number of those edges, clamped below at
  one. The reference does everything with host operations; the kernel program does the two dense layers in two
  pallas_calls, each over 20 blocks of 5000 rows, and forms the mean as a product with the reciprocal of the clamped
  count. On the extended reals a product of matrices is the same sum however it is blocked, narrowing an operand's
  format changes nothing, and `a · (1 / d) = a / d` whenever `d ≥ 1`: the two results are equal entry by entry, for
  every input, with no use of the precondition.

  The three frames are the generated ones (the reference's is its generated run with the result dropped); the ideal
  pass rewrote nothing, so `preserves` is trivial; `algebraic` puts the kernel program's run (`KRun.run_out`, its
  result read back to the arguments by `KChain.out_eq`) beside the reference's run (its result by `RefValue.res_eq`),
  both at the specification `Cert.Sage.net`.
-/
import proofs.«153038_j40776419508824_1_alg».proof.Defs
import proofs.«153038_j40776419508824_1_alg».proof.Proof.Gen.Kernel
import proofs.«153038_j40776419508824_1_alg».proof.Proof.Gen.Kernel.Skeleton
import proofs.«153038_j40776419508824_1_alg».proof.Proof.Gen.Kernel.Launch
import proofs.«153038_j40776419508824_1_alg».proof.Proof.Gen.Kernel.Points
import proofs.«153038_j40776419508824_1_alg».proof.Proof.Gen.Kernel.Frame
import proofs.«153038_j40776419508824_1_alg».proof.Proof.Gen.KernelIdeal
import proofs.«153038_j40776419508824_1_alg».proof.Proof.Gen.KernelIdeal.Skeleton
import proofs.«153038_j40776419508824_1_alg».proof.Proof.Gen.KernelIdeal.Launch
import proofs.«153038_j40776419508824_1_alg».proof.Proof.Gen.KernelIdeal.Points
import proofs.«153038_j40776419508824_1_alg».proof.Proof.Gen.KernelIdeal.Frame
import proofs.«153038_j40776419508824_1_alg».proof.Proof.Gen.ReferenceIdeal
import proofs.«153038_j40776419508824_1_alg».proof.Proof.Gen.Pre_finite_inputs
import proofs.«153038_j40776419508824_1_alg».proof.Proof.Gen.ReferenceIdeal.Run
import proofs.«153038_j40776419508824_1_alg».proof.Proof.Gen.ReferenceIdeal.Read
import proofs.«153038_j40776419508824_1_alg».proof.Proof.KRun
import proofs.«153038_j40776419508824_1_alg».proof.Proof.KChain
import proofs.«153038_j40776419508824_1_alg».proof.Proof.RefNet
import Idealize.ShloMosaic.Adequacy
import Idealize.ShloMosaic.Init

noncomputable section

namespace Cert.Proof

open Idealize.ShloMosaic Idealize.SL.Sem Cert.Kernel

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the nine arguments both programs end with the two-layer network of those arguments
    in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono (fun _ h c => ⟨(h c).1.trans (Cert.KernelIdeal.KChain.out_eq m ρ c), (h c).2⟩)
    (Cert.KernelIdeal.KRun.run_out (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.RefValue.res_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
